-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg8 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg5 : FVec F S96x96 .f32) (main_arg6 : FVec F S96 .f32) (main_arg7 : FVec F S96x96 .f32) (main_arg8 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_v33

def fn {F : FTy → Type} [FloatOps F] (main_arg0 : FVec F S50000x96 .f32) (main_arg1 : IVec S2x800000 32) (main_arg2 : FVec F S800000 .f32) (main_arg3 : FVec F S96x96 .f32) (main_arg4 : FVec F S96 .f32) (main_arg5 : FVec F S96x96 .f32) (main_arg6 : FVec F S96 .f32) (main_arg7 : FVec F S96x96 .f32) (main_arg8 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x96 : Shape := ⟨2, ![2000, 96]⟩
abbrev S850000x96 : Shape := ⟨2, ![850000, 96]⟩
abbrev S1x96 : Shape := ⟨2, ![1, 96]⟩

abbrev nBuf : Space → Nat
  | .hbm => 106
  | .vmem => 17
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x96, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x96, .f32⟩
  | .hbm, ⟨60, _⟩ => ⟨S850000x1, .f32⟩
  | .hbm, ⟨61, _⟩ => ⟨S850000x96, .f32⟩
  | .hbm, ⟨62, _⟩ => ⟨S850000x96, .f32⟩
  | .hbm, ⟨63, _⟩ => ⟨S_, .f32⟩
  | .hbm, ⟨64, _⟩ => ⟨S50000x96, .f32⟩
  | .hbm, ⟨65, _⟩ => ⟨S850000x1, .i32⟩
  | .hbm, ⟨66, _⟩ => ⟨S50000x96, .f32⟩
  | .hbm, ⟨67, _⟩ => ⟨S1x96, .f32⟩
  | .hbm, ⟨68, _⟩ => ⟨S50000x96, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x96, .f32⟩
  | .hbm, ⟨78, _⟩ => ⟨S850000x1, .f32⟩
  | .hbm, ⟨79, _⟩ => ⟨S850000x96, .f32⟩
  | .hbm, ⟨80, _⟩ => ⟨S850000x96, .f32⟩
  | .hbm, ⟨81, _⟩ => ⟨S_, .f32⟩
  | .hbm, ⟨82, _⟩ => ⟨S50000x96, .f32⟩
  | .hbm, ⟨83, _⟩ => ⟨S850000x1, .i32⟩
  | .hbm, ⟨84, _⟩ => ⟨S50000x96, .f32⟩
  | .hbm, ⟨85, _⟩ => ⟨S1x96, .f32⟩
  | .hbm, ⟨86, _⟩ => ⟨S50000x96, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x96, .f32⟩
  | .hbm, ⟨96, _⟩ => ⟨S850000x1, .f32⟩
  | .hbm, ⟨97, _⟩ => ⟨S850000x96, .f32⟩
  | .hbm, ⟨98, _⟩ => ⟨S850000x96, .f32⟩
  | .hbm, ⟨99, _⟩ => ⟨S_, .f32⟩
  | .hbm, ⟨100, _⟩ => ⟨S50000x96, .f32⟩
  | .hbm, ⟨101, _⟩ => ⟨S850000x1, .i32⟩
  | .hbm, ⟨102, _⟩ => ⟨S50000x96, .f32⟩
  | .hbm, ⟨103, _⟩ => ⟨S1x96, .f32⟩
  | .hbm, ⟨104, _⟩ => ⟨S50000x96, .f32⟩
  | .hbm, ⟨105, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S1x96, .f32⟩
  | .local _ .vmem, ⟨8, _⟩ => ⟨S96x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S1x96, .f32⟩
  | .local _ .vmem, ⟨14, _⟩ => ⟨S96x96, .f32⟩
  | .local _ .vmem, ⟨15, _⟩ => ⟨S2000x96, .f32⟩
  | .local _ .vmem, ⟨16, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x96_S96x96_S2000x96_1_0_0_1_n_n_wf : DotDims.WF S2000x96 S96x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x96.size a ≤ S50000x96.size a
  hwx2_3 : ∀ i : grid2.Coords, EltTy.bits .f32 = 32 ∨ (Rect.block (s := S50000x96) S2000x96.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩

abbrev nBuf : Space → Nat
  | .hbm => 190
  | .vmem => 0
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S96x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x96, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x96, .f32⟩
  | 60 => ⟨S850000x1, .f32⟩
  | 61 => ⟨S850000x96, .f32⟩
  | 62 => ⟨S850000x96, .f32⟩
  | 63 => ⟨S_, .f32⟩
  | 64 => ⟨S50000x96, .f32⟩
  | 65 => ⟨S850000x1, .i32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S50000, .i32⟩
  | 74 => ⟨S850000, .i32⟩
  | 75 => ⟨S850000, .i32⟩
  | 76 => ⟨S_, .f32⟩
  | 77 => ⟨S50000, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x96, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x96, .f32⟩
  | 120 => ⟨S850000x1, .f32⟩
  | 121 => ⟨S850000x96, .f32⟩
  | 122 => ⟨S850000x96, .f32⟩
  | 123 => ⟨S_, .f32⟩
  | 124 => ⟨S50000x96, .f32⟩
  | 125 => ⟨S850000x1, .i32⟩
  | 126 => ⟨S50000x96, .f32⟩
  | 127 => ⟨S1x96, .f32⟩
  | _ => ⟨S50000x96, .f32⟩

abbrev hbmTy0_1 (i : Nat) : BufTy := match i % 128 with
  | 0 => ⟨S50000x96, .f32⟩
  | 1 => ⟨S50000x96, .f32⟩
  | 2 => ⟨S_, .f32⟩
  | 3 => ⟨S50000x96, .f32⟩
  | 4 => ⟨S50000x96, .f32⟩
  | 5 => ⟨S50000, .i32⟩
  | 6 => ⟨S850000, .i32⟩
  | 7 => ⟨S850000, .i32⟩
  | 8 => ⟨S_, .f32⟩
  | 9 => ⟨S50000, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S50000x96, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x96, .f32⟩
  | 52 => ⟨S850000x1, .f32⟩
  | 53 => ⟨S850000x96, .f32⟩
  | 54 => ⟨S850000x96, .f32⟩
  | 55 => ⟨S_, .f32⟩
  | 56 => ⟨S50000x96, .f32⟩
  | 57 => ⟨S850000x1, .i32⟩
  | 58 => ⟨S50000x96, .f32⟩
  | 59 => ⟨S1x96, .f32⟩
  | 60 => ⟨S50000x96, .f32⟩
  | 61 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_20 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_22 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_23 : Ref sig .tc := ⟨.hbm, 147, rfl⟩
abbrev main_v109 : Ref sig .tc := ⟨.hbm, 148, rfl⟩
abbrev main_v110 : Ref sig .tc := ⟨.hbm, 149, rfl⟩
abbrev main_c_24 : Ref sig .tc := ⟨.hbm, 150, rfl⟩
abbrev main_v111 : Ref sig .tc := ⟨.hbm, 151, rfl⟩
abbrev main_v112 : Ref sig .tc := ⟨.hbm, 152, rfl⟩
abbrev main_c_25 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_26 : Ref sig .tc := ⟨.hbm, 160, rfl⟩
abbrev main_v119 : Ref sig .tc := ⟨.hbm, 161, rfl⟩
abbrev main_v120 : Ref sig .tc := ⟨.hbm, 162, rfl⟩
abbrev main_c_27 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_28 : Ref sig .tc := ⟨.hbm, 171, rfl⟩
abbrev main_v128 : Ref sig .tc := ⟨.hbm, 172, rfl⟩
abbrev main_v129 : Ref sig .tc := ⟨.hbm, 173, rfl⟩
abbrev main_c_29 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_30 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

class Facts : Prop extends Facts₀ where

variable [Facts]
-- ==== Proof.WholeRun.lean ====
/-
  The idealized kernel's whole run, with every buffer named.

  The program is nine segments in a row: three stretches of host operations, the first matrix kernel's grid, a stretch, the
  second kernel's grid, a stretch, the third kernel's grid, and a last stretch. Started from any memory, every weakly
  fair execution ends, and each buffer that outlives a kernel then holds the last of the boundary contents: the launch
  contents pushed through the stretches (each operation's result written where it is bound) and through the grids (each
  kernel's output array at what its 25 write-backs leave, everything else as the grid found it).
-/
import proofs.«102974_j66915590472494_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with every buffer that outlives a kernel at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same, read at one named buffer of the TensorCore. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W9 m ρ c (Proc.devRef .tc b)) :=
  (θ_run defs _ _).mono (fun r h c => h c _ (mem_uc b hb)) (run_all m ρ)

end Cert.KernelIdeal.Whole

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.Tiles.lean ====
/-
  One row tile of a dense layer, read at (row, column) on extended reals.

  Each of the three kernels multiplies a tile of 2000 rows by a 96 x 96 weight matrix on the matrix unit, into a zero
  accumulator, after rounding both operands to bf16 (the identity on extended reals). The first takes the tile as it
  is; the other two first add a bias row to every row of the tile and clamp below at the zero word. So entry (p, j) of
  the stored tile is
      sum over k of  t(p, k) * W(k, j)                      (first kernel)
      sum over k of  max (t(p, k) + b(0, k)) 0w * W(k, j)    (second and third kernel)
  where 0w is the value of the zero word, kept as the word. Only re-indexing of a finite sum is used.
-/
import proofs.«102974_j66915590472494_1_alg».proof.Proof.Gen.KernelIdeal
import proofs.«102974_j66915590472494_1_alg».proof.Proof.Gen.KernelIdeal.Skeleton
import proofs.«102974_j66915590472494_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tiles

open Cert.KernelIdeal Cert.KernelIdeal.Gen Idealize.ShloMosaic Idealize.ShloMosaic.ValueIdx
open scoped BigOperators

/-! ## The contraction's operand indices: the left operand is read at (row of the result, k), the right at (k, column) -/

theorem left_row (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide),
    dif_pos (show (0 : Fin S2000x96.rank) ∈ dot_S2000x96_S96x96_S2000x96_1_0_0_1_n_n.lhsNonContracting by decide)]
  rfl

theorem left_k (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q

theorem right_k (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q

theorem right_col (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide),
    dif_pos (show (1 : Fin S96x96.rank) ∈ dot_S2000x96_S96x96_S2000x96_1_0_0_1_n_n.rhsNonContracting by decide)]
  rfl

/-- The matrix unit's product of a 2000-row tile and the weights into a zero accumulator, at (p, j): the sum over the 96
    contracted positions. -/
theorem product_at (t : FVec Ideal S2000x96 .f32) (W : FVec Ideal S96x96 .f32) (hlt : FTy.bf16.bits < FTy.f32.bits)
    (p : Fin 2000) (j : Fin 96) :
    matmul dot_S2000x96_S96x96_S2000x96_1_0_0_1_n_n none (truncf .bf16 t hlt) (truncf .bf16 W hlt)
        (constant (F := Ideal) S2000x96 .f32 0x00000000#32) (ix2 p j)
      = ∑ k : Fin 96, t (ix2 p k) * W (ix2 k j) :=
  (Ideal.matmul_constant_zero_apply dot_S2000x96_S96x96_S2000x96_1_0_0_1_n_n none (truncf .bf16 t hlt) (truncf .bf16 W hlt) (ix2 p j)).trans
    (Cert.Dense.contraction_rows dot_S2000x96_S96x96_S2000x96_1_0_0_1_n_n rfl rfl left_row left_k right_k right_col t W p j)

/-- The first kernel's stored tile at (p, j). -/
theorem first_tile (t : Vec Ideal S2000x96 .f32) (W : Vec Ideal S96x96 .f32) (p : Fin 2000) (j : Fin 96) :
    k0_pay1 (F := Ideal) t W (ix2 p j) = ∑ k : Fin 96, t (ix2 p k) * W (ix2 k j) := by
  unfold k0_pay1
  exact product_at t W _ p j

/-- A tile with the bias row added to every row and clamped below at the zero word, at (p, k). -/
theorem clamped_at (t : FVec Ideal S2000x96 .f32) (b : FVec Ideal S1x96 .f32)
    (h1 : S2000x96.ShapeCasts S2000x96) (h2 : S1x96.ShapeCasts S1x96) (h3 : S1x96.Broadcasts S2000x96) (p : Fin 2000) (k : Fin 96) :
    maximumf (addf (shapeCast S2000x96 t h1) (broadcastTo S2000x96 (shapeCast S1x96 b h2) h3))
        (broadcast S2000x96 (Scalar.ofBits (F := Ideal) .f32 0x00000000#32)) (ix2 p k)
      = max (t (ix2 p k) + b (ix2 (0 : Fin 1) k)) (Ideal.ofBits .f32 0x00000000#32) := by
  rw [Cert.Dense.relu_tile]
  show max (addf (shapeCast S2000x96 t h1) (broadcastTo S2000x96 (shapeCast S1x96 b h2) h3) (ix2 p k)) _ = _
  rw [addf_apply, shapeCast_self, shapeCast_self, broadcastTo_1b_ab_apply]

/-- The second kernel's stored tile at (p, j). -/
theorem second_tile (t : Vec Ideal S2000x96 .f32) (b : Vec Ideal S1x96 .f32) (W : Vec Ideal S96x96 .f32) (p : Fin 2000) (j : Fin 96) :
    k1_pay1 (F := Ideal) t b W (ix2 p j)
      = ∑ k : Fin 96, max (t (ix2 p k) + b (ix2 (0 : Fin 1) k)) (Ideal.ofBits .f32 0x00000000#32) * W (ix2 k j) := by
  unfold k1_pay1
  refine (product_at _ W _ p j).trans (Finset.sum_congr rfl fun k _ => ?_)
  exact congrArg (· * W (ix2 k j)) (clamped_at t b _ _ _ p k)

/-- The third kernel's stored tile at (p, j): the second kernel's text. -/
theorem third_tile (t : Vec Ideal S2000x96 .f32) (b : Vec Ideal S1x96 .f32) (W : Vec Ideal S96x96 .f32) (p : Fin 2000) (j : Fin 96) :
    k2_pay1 (F := Ideal) t b W (ix2 p j)
      = ∑ k : Fin 96, max (t (ix2 p k) + b (ix2 (0 : Fin 1) k)) (Ideal.ofBits .f32 0x00000000#32) * W (ix2 k j) := by
  unfold k2_pay1
  refine (product_at _ W _ p j).trans (Finset.sum_congr rfl fun k _ => ?_)
  exact congrArg (· * W (ix2 k j)) (clamped_at t b _ _ _ p k)

end Cert.KernelIdeal.Tiles

end
-- ==== Proof.Layer.lean ====
/-
  The dense part of one graph-convolution layer, as functions of whole arrays on extended reals.

  Nodes are the 50000 rows, features the 96 columns. `project h W` is the matrix product h W: entry (n, j) is the sum
  over the 96 features k of h(n, k) * W(k, j). `activate a b` adds the bias vector b to every row of a and clamps each
  entry below at the zero word's value (the rectifier; the word is kept as printed and never evaluated). A layer after
  the first projects the activated aggregate of the layer before: `project (activate a b) W`.
-/
import Idealize.ShloMosaic.PureOps.Ideal
import Idealize.ShloMosaic.Lib.ValueIdx

noncomputable section

namespace Cert.Layer

open Idealize.ShloMosaic Idealize.ShloMosaic.ValueIdx
open scoped BigOperators

/-- Node features: 50000 nodes by 96 features. -/
abbrev Nodes : Shape := ⟨2, ![50000, 96]⟩
/-- A layer's weights: 96 by 96. -/
abbrev Weights : Shape := ⟨2, ![96, 96]⟩
/-- A layer's bias: 96 entries. -/
abbrev Bias : Shape := ⟨1, ![96]⟩

/-- The node of an entry. -/
abbrev node (i : Nodes.Idx) : Fin 50000 := ⟨(i 0).val, (i 0).isLt⟩
/-- The feature of an entry. -/
abbrev feat (i : Nodes.Idx) : Fin 96 := ⟨(i 1).val, (i 1).isLt⟩

/-- The matrix product h W. -/
def project (h : Nodes.Idx → EReal) (W : Weights.Idx → EReal) : Nodes.Idx → EReal :=
  fun i => ∑ k : Fin 96, h (ix2 (node i) k) * W (ix2 k (feat i))

/-- Bias added to every row, then the rectifier. -/
def activate (a : Nodes.Idx → EReal) (b : Bias.Idx → EReal) : Nodes.Idx → EReal :=
  fun i => max (a i + b (ix1 (feat i))) (Ideal.ofBits .f32 0x00000000#32)

theorem project_apply (h : Nodes.Idx → EReal) (W : Weights.Idx → EReal) (i : Nodes.Idx) :
    project h W i = ∑ k : Fin 96, h (ix2 (node i) k) * W (ix2 k (feat i)) := rfl

theorem activate_apply (a : Nodes.Idx → EReal) (b : Bias.Idx → EReal) (n : Fin 50000) (k : Fin 96) :
    activate a b (ix2 n k) = max (a (ix2 n k) + b (ix1 k)) (Ideal.ofBits .f32 0x00000000#32) := rfl

end Cert.Layer

end
-- ==== Proof.Arrays.lean ====
/-
  From row tiles to whole arrays: what each of the three kernels leaves in its output array.

  A kernel's grid has 25 points; point t reads rows 2000 t .. 2000 t + 1999 of its node-feature operand, the whole bias
  row and weight matrix, and writes back the same rows of its output. Each written tile is that block of ONE function
  of the operand arrays as the grid found them — the matrix product for the first kernel, the product of the
  bias-shifted, clamped operand for the other two — and the 25 tiles cover the 50000 rows. So after the grid the output
  array is that function, whatever the arrays held on entry.
-/
import proofs.«102974_j66915590472494_1_alg».proof.Proof.Gen.KernelIdeal.Frame
import proofs.«102974_j66915590472494_1_alg».proof.Proof.Tiles
import proofs.«102974_j66915590472494_1_alg».proof.Proof.Layer
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem origin : (![0, 0] : Fin 2 → Nat) = fun _ => 0 := funext fun a => by fin_cases a <;> rfl

/-- The product of a bias-shifted, clamped operand with the weights, the bias given as a 1 x 96 row:
    entry (n, j) is the sum over k of max (a(n, k) + b(0, k)) 0w * W(k, j). -/
def biasedProduct (a : S50000x96.Idx → EReal) (b : S1x96.Idx → EReal) (W : S96x96.Idx → EReal) : S50000x96.Idx → EReal :=
  fun i => ∑ k : Fin 96, max (a (ix2 (Layer.node i) k) + b (ix2 (0 : Fin 1) k)) (Ideal.ofBits .f32 0x00000000#32) * W (ix2 k (Layer.feat i))

/-! ## One written tile, over plain variables: the tile's operands are blocks of arrays, read through embeddings whose
    coordinates are known -/

/-- The first kernel's tile at y is the matrix product at the array entry i that y embeds to. -/
theorem first_tile_of (x0 : Vec Ideal S2000x96 .f32) (x1 : Vec Ideal S96x96 .f32)
    (X : S50000x96.Idx → EReal) (Wt : S96x96.Idx → EReal) (base : ℕ)
    (e0 : S2000x96.Idx → S50000x96.Idx) (e1 : S96x96.Idx → S96x96.Idx)
    (h0 : ∀ z, x0 z = X (e0 z)) (h1 : ∀ z, x1 z = Wt (e1 z))
    (he0 : ∀ z, (e0 z 0).val = base + (z 0).val ∧ (e0 z 1).val = 0 + (z 1).val)
    (he1 : ∀ z, (e1 z 0).val = 0 + (z 0).val ∧ (e1 z 1).val = 0 + (z 1).val)
    (y : S2000x96.Idx) (i : S50000x96.Idx) (hi0 : (i 0).val = base + (y 0).val) (hi1 : (i 1).val = 0 + (y 1).val) :
    k0_pay1 (F := Ideal) x0 x1 y = Layer.project X Wt i := by
  obtain ⟨p, q, rfl⟩ : ∃ (p : Fin 2000) (q : Fin 96), y = ix2 p q := ⟨y 0, y 1, eq_ix2 y⟩
  rw [Tiles.first_tile, Layer.project_apply]
  refine Finset.sum_congr rfl fun k _ => ?_
  rw [h0, h1]
  have ea : e0 (ix2 p k) = ix2 (Layer.node i) k :=
    Cert.Dense.ix2_of_val _ _ _ ((he0 _).1.trans hi0.symm) ((he0 _).2.trans (Nat.zero_add _))
  have eb : e1 (ix2 k q) = ix2 k (Layer.feat i) :=
    Cert.Dense.ix2_of_val _ _ _ ((he1 _).1.trans (Nat.zero_add _)) ((he1 _).2.trans hi1.symm)
  rw [ea, eb]

/-- The second kernel's tile at y is the biased product at the array entry i that y embeds to. -/
theorem later_tile_of (x0 : Vec Ideal S2000x96 .f32) (x1 : Vec Ideal S1x96 .f32) (x2 : Vec Ideal S96x96 .f32)
    (A : S50000x96.Idx → EReal) (B : S1x96.Idx → EReal) (Wt : S96x96.Idx → EReal) (base : ℕ)
    (e0 : S2000x96.Idx → S50000x96.Idx) (e1 : S1x96.Idx → S1x96.Idx) (e2 : S96x96.Idx → S96x96.Idx)
    (h0 : ∀ z, x0 z = A (e0 z)) (h1 : ∀ z, x1 z = B (e1 z)) (h2 : ∀ z, x2 z = Wt (e2 z))
    (he0 : ∀ z, (e0 z 0).val = base + (z 0).val ∧ (e0 z 1).val = 0 + (z 1).val)
    (he1 : ∀ z, (e1 z 0).val = 0 + (z 0).val ∧ (e1 z 1).val = 0 + (z 1).val)
    (he2 : ∀ z, (e2 z 0).val = 0 + (z 0).val ∧ (e2 z 1).val = 0 + (z 1).val)
    (y : S2000x96.Idx) (i : S50000x96.Idx) (hi0 : (i 0).val = base + (y 0).val) (hi1 : (i 1).val = 0 + (y 1).val) :
    k1_pay1 (F := Ideal) x0 x1 x2 y = biasedProduct A B Wt i := by
  obtain ⟨p, q, rfl⟩ : ∃ (p : Fin 2000) (q : Fin 96), y = ix2 p q := ⟨y 0, y 1, eq_ix2 y⟩
  rw [Tiles.second_tile]
  unfold biasedProduct
  refine Finset.sum_congr rfl fun k _ => ?_
  rw [h0, h1, h2]
  have ea : e0 (ix2 p k) = ix2 (Layer.node i) k :=
    Cert.Dense.ix2_of_val _ _ _ ((he0 _).1.trans hi0.symm) ((he0 _).2.trans (Nat.zero_add _))
  have eb : e1 (ix2 (0 : Fin 1) k) = ix2 (0 : Fin 1) k :=
    Cert.Dense.ix2_of_val _ _ _ ((he1 _).1.trans (Nat.zero_add _)) ((he1 _).2.trans (Nat.zero_add _))
  have ec : e2 (ix2 k q) = ix2 k (Layer.feat i) :=
    Cert.Dense.ix2_of_val _ _ _ ((he2 _).1.trans (Nat.zero_add _)) ((he2 _).2.trans hi1.symm)
  rw [ea, eb, ec]

/-- The third kernel's tile at y is the biased product at the array entry i that y embeds to. -/
theorem later_tile_of' (x0 : Vec Ideal S2000x96 .f32) (x1 : Vec Ideal S1x96 .f32) (x2 : Vec Ideal S96x96 .f32)
    (A : S50000x96.Idx → EReal) (B : S1x96.Idx → EReal) (Wt : S96x96.Idx → EReal) (base : ℕ)
    (e0 : S2000x96.Idx → S50000x96.Idx) (e1 : S1x96.Idx → S1x96.Idx) (e2 : S96x96.Idx → S96x96.Idx)
    (h0 : ∀ z, x0 z = A (e0 z)) (h1 : ∀ z, x1 z = B (e1 z)) (h2 : ∀ z, x2 z = Wt (e2 z))
    (he0 : ∀ z, (e0 z 0).val = base + (z 0).val ∧ (e0 z 1).val = 0 + (z 1).val)
    (he1 : ∀ z, (e1 z 0).val = 0 + (z 0).val ∧ (e1 z 1).val = 0 + (z 1).val)
    (he2 : ∀ z, (e2 z 0).val = 0 + (z 0).val ∧ (e2 z 1).val = 0 + (z 1).val)
    (y : S2000x96.Idx) (i : S50000x96.Idx) (hi0 : (i 0).val = base + (y 0).val) (hi1 : (i 1).val = 0 + (y 1).val) :
    k2_pay1 (F := Ideal) x0 x1 x2 y = biasedProduct A B Wt i := by
  obtain ⟨p, q, rfl⟩ : ∃ (p : Fin 2000) (q : Fin 96), y = ix2 p q := ⟨y 0, y 1, eq_ix2 y⟩
  rw [Tiles.third_tile]
  unfold biasedProduct
  refine Finset.sum_congr rfl fun k _ => ?_
  rw [h0, h1, h2]
  have ea : e0 (ix2 p k) = ix2 (Layer.node i) k :=
    Cert.Dense.ix2_of_val _ _ _ ((he0 _).1.trans hi0.symm) ((he0 _).2.trans (Nat.zero_add _))
  have eb : e1 (ix2 (0 : Fin 1) k) = ix2 (0 : Fin 1) k :=
    Cert.Dense.ix2_of_val _ _ _ ((he1 _).1.trans (Nat.zero_add _)) ((he1 _).2.trans (Nat.zero_add _))
  have ec : e2 (ix2 k q) = ix2 k (Layer.feat i) :=
    Cert.Dense.ix2_of_val _ _ _ ((he2 _).1.trans (Nat.zero_add _)) ((he2 _).2.trans hi1.symm)
  rw [ea, eb, ec]

variable (V : (c : Dev nD) → (b : Ref sig .tc) → Buf (Elt Ideal) ((c : Thread nD τ).loc b))

/-! ## The first kernel's grid -/

/-- Where each window's block sits at grid point t: the row tiles (the input tile and the output tile) at block row t, the
    resident operands at block (0, 0). Decided over the 25 points. -/
theorem blocks_at0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 2000 t .. 2000 t + 1999 of ONE whole-array function of the arrays the grid found. -/
theorem written0 (c : Dev nD) (t : Fin cfg0.N) :
    (dat0 V c).flushed 2 t = ((cfg0.win 2).blk t).view.read (Elt Ideal) (Layer.project (V c main_arg0) (V c main_arg3)) := by
  show (cfg0.win 2).cut (grid0.coords t) ((dat0 V c).after 2 t) = _
  rw [after0_2]
  unfold out0_2
  rw [View.canon_unit_zero origin]
  simp only [View.ld_unit_zero (S := S2000x96) origin, View.ld_unit_zero (S := S96x96) origin]
  obtain ⟨a0, a1, w0, w1, o0, o1⟩ := blocks_at0 t
  funext y
  show k0_pay1 (F := Ideal) (iblk0 V c 0 t) (iblk0 V c 1 t) y = Layer.project (V c main_arg0) (V c main_arg3) (((cfg0.win 2).blk t).view.emb y)
  refine first_tile_of _ _ (V c main_arg0) (V c main_arg3) (t.val * 2000)
    (((cfg0.win 0).blk t).view.emb) (((cfg0.win 1).blk t).view.emb)
    (fun z => rfl) (fun z => rfl)
    (fun z => ⟨by show win0_0.index t (0 : Fin 2) * 2000 + 1 * (z 0).val = _; rw [a0]; omega, by show win0_0.index t (1 : Fin 2) * 96 + 1 * (z 1).val = _; rw [a1]; omega⟩)
    (fun z => ⟨by show win0_1.index t (0 : Fin 2) * 96 + 1 * (z 0).val = _; rw [w0]; omega, by show win0_1.index t (1 : Fin 2) * 96 + 1 * (z 1).val = _; rw [w1]; omega⟩)
    y _ ?_ ?_
  · show win0_2.index t (0 : Fin 2) * 2000 + 1 * (y 0).val = _; rw [o0]; omega
  · show win0_2.index t (1 : Fin 2) * 96 + 1 * (y 1).val = _; rw [o1]; omega

/-- An entry of the output array lies in point t's block iff its row is one of the tile's 2000 and its column one of the 96. -/
theorem in_block0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v33).slice (win0_2.rect t)).set ↔ _
  rw [View.set_slice_whole, Rect.mem_set_unit]
  exact Iff.rfl

/-- The 25 tiles cover the array: row n is in tile n / 2000. So after the grid the output array IS that function. -/
theorem array0 (c : Dev nD) : (dat0 V c).arrAt 2 cfg0.N = (Layer.project (V c main_arg0) (V c main_arg3)) :=
  (dat0 V c).arrAt_eq_of_cover 2 _ (fun t _ => written0 V c t) fun i => by
    have hr : (i 0).val < 50000 := (i 0).isLt
    have hc : (i 1).val < 96 := (i 1).isLt
    have hN : cfg0.N = 25 := N_0
    refine ⟨⟨(i 0).val / 2000, by rw [hN]; omega⟩, flush0_2 _, ?_⟩
    rw [in_block0]
    obtain ⟨-, -, -, -, o0, o1⟩ := blocks_at0 ⟨(i 0).val / 2000, by rw [hN]; omega⟩
    intro a
    match a with
    | ⟨0, _⟩ => show win0_2.index _ (0 : Fin 2) * 2000 ≤ (i 0).val ∧ (i 0).val < win0_2.index _ (0 : Fin 2) * 2000 + 2000; rw [o0]; show (i 0).val / 2000 * 2000 ≤ (i 0).val ∧ (i 0).val < (i 0).val / 2000 * 2000 + 2000; omega
    | ⟨1, _⟩ => show win0_2.index _ (1 : Fin 2) * 96 ≤ (i 1).val ∧ (i 1).val < win0_2.index _ (1 : Fin 2) * 96 + 96; rw [o1]; omega

/-! ## The second kernel's grid -/

/-- Where each window's block sits at grid point t: the row tiles (the input tile and the output tile) at block row t, the
    resident operands at block (0, 0). Decided over the 25 points. -/
theorem blocks_at1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is rows 2000 t .. 2000 t + 1999 of ONE whole-array function of the arrays the grid found. -/
theorem written1 (c : Dev nD) (t : Fin cfg1.N) :
    (dat1 V c).flushed 3 t = ((cfg1.win 3).blk t).view.read (Elt Ideal) (biasedProduct (V c main_v46) (V c main_v47) (V c main_arg5)) := by
  show (cfg1.win 3).cut (grid1.coords t) ((dat1 V c).after 3 t) = _
  rw [after1_3]
  unfold out1_3
  rw [View.canon_unit_zero origin]
  simp only [View.ld_unit_zero (S := S2000x96) origin, View.ld_unit_zero (S := S96x96) origin, View.ld_unit_zero (S := S1x96) origin]
  obtain ⟨a0, a1, b0, b1, w0, w1, o0, o1⟩ := blocks_at1 t
  funext y
  show k1_pay1 (F := Ideal) (iblk1 V c 0 t) (iblk1 V c 1 t) (iblk1 V c 2 t) y = biasedProduct (V c main_v46) (V c main_v47) (V c main_arg5) (((cfg1.win 3).blk t).view.emb y)
  refine later_tile_of _ _ _ (V c main_v46) (V c main_v47) (V c main_arg5) (t.val * 2000)
    (((cfg1.win 0).blk t).view.emb) (((cfg1.win 1).blk t).view.emb) (((cfg1.win 2).blk t).view.emb)
    (fun z => rfl) (fun z => rfl) (fun z => rfl)
    (fun z => ⟨by show win1_0.index t (0 : Fin 2) * 2000 + 1 * (z 0).val = _; rw [a0]; omega, by show win1_0.index t (1 : Fin 2) * 96 + 1 * (z 1).val = _; rw [a1]; omega⟩)
    (fun z => ⟨by show win1_1.index t (0 : Fin 2) * 1 + 1 * (z 0).val = _; rw [b0]; omega, by show win1_1.index t (1 : Fin 2) * 96 + 1 * (z 1).val = _; rw [b1]; omega⟩)
    (fun z => ⟨by show win1_2.index t (0 : Fin 2) * 96 + 1 * (z 0).val = _; rw [w0]; omega, by show win1_2.index t (1 : Fin 2) * 96 + 1 * (z 1).val = _; rw [w1]; omega⟩)
    y _ ?_ ?_
  · show win1_3.index t (0 : Fin 2) * 2000 + 1 * (y 0).val = _; rw [o0]; omega
  · show win1_3.index t (1 : Fin 2) * 96 + 1 * (y 1).val = _; rw [o1]; omega

/-- An entry of the output array lies in point t's block iff its row is one of the tile's 2000 and its column one of the 96. -/
theorem in_block1 (t : Fin cfg1.N) (i : S50000x96.Idx) :
    i ∈ ((cfg1.win 3).blk t).view.set ↔ ∀ a : Fin 2, win1_3.index t a * S2000x96.size a ≤ (i a).val ∧ (i a).val < win1_3.index t a * S2000x96.size a + S2000x96.size a := by
  show i ∈ ((View.whole main_v48).slice (win1_3.rect t)).set ↔ _
  rw [View.set_slice_whole, Rect.mem_set_unit]
  exact Iff.rfl

/-- The 25 tiles cover the array: row n is in tile n / 2000. So after the grid the output array IS that function. -/
theorem array1 (c : Dev nD) : (dat1 V c).arrAt 3 cfg1.N = (biasedProduct (V c main_v46) (V c main_v47) (V c main_arg5)) :=
  (dat1 V c).arrAt_eq_of_cover 3 _ (fun t _ => written1 V c t) fun i => by
    have hr : (i 0).val < 50000 := (i 0).isLt
    have hc : (i 1).val < 96 := (i 1).isLt
    have hN : cfg1.N = 25 := N_1
    refine ⟨⟨(i 0).val / 2000, by rw [hN]; omega⟩, flush1_3 _, ?_⟩
    rw [in_block1]
    obtain ⟨-, -, -, -, -, -, o0, o1⟩ := blocks_at1 ⟨(i 0).val / 2000, by rw [hN]; omega⟩
    intro a
    match a with
    | ⟨0, _⟩ => show win1_3.index _ (0 : Fin 2) * 2000 ≤ (i 0).val ∧ (i 0).val < win1_3.index _ (0 : Fin 2) * 2000 + 2000; rw [o0]; show (i 0).val / 2000 * 2000 ≤ (i 0).val ∧ (i 0).val < (i 0).val / 2000 * 2000 + 2000; omega
    | ⟨1, _⟩ => show win1_3.index _ (1 : Fin 2) * 96 ≤ (i 1).val ∧ (i 1).val < win1_3.index _ (1 : Fin 2) * 96 + 96; rw [o1]; omega

/-! ## The third kernel's grid -/

/-- Where each window's block sits at grid point t: the row tiles (the input tile and the output tile) at block row t, the
    resident operands at block (0, 0). Decided over the 25 points. -/
theorem blocks_at2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is rows 2000 t .. 2000 t + 1999 of ONE whole-array function of the arrays the grid found. -/
theorem written2 (c : Dev nD) (t : Fin cfg2.N) :
    (dat2 V c).flushed 3 t = ((cfg2.win 3).blk t).view.read (Elt Ideal) (biasedProduct (V c main_v61) (V c main_v62) (V c main_arg7)) := by
  show (cfg2.win 3).cut (grid2.coords t) ((dat2 V c).after 3 t) = _
  rw [after2_3]
  unfold out2_3
  rw [View.canon_unit_zero origin]
  simp only [View.ld_unit_zero (S := S2000x96) origin, View.ld_unit_zero (S := S96x96) origin, View.ld_unit_zero (S := S1x96) origin]
  obtain ⟨a0, a1, b0, b1, w0, w1, o0, o1⟩ := blocks_at2 t
  funext y
  show k2_pay1 (F := Ideal) (iblk2 V c 0 t) (iblk2 V c 1 t) (iblk2 V c 2 t) y = biasedProduct (V c main_v61) (V c main_v62) (V c main_arg7) (((cfg2.win 3).blk t).view.emb y)
  refine later_tile_of' _ _ _ (V c main_v61) (V c main_v62) (V c main_arg7) (t.val * 2000)
    (((cfg2.win 0).blk t).view.emb) (((cfg2.win 1).blk t).view.emb) (((cfg2.win 2).blk t).view.emb)
    (fun z => rfl) (fun z => rfl) (fun z => rfl)
    (fun z => ⟨by show win2_0.index t (0 : Fin 2) * 2000 + 1 * (z 0).val = _; rw [a0]; omega, by show win2_0.index t (1 : Fin 2) * 96 + 1 * (z 1).val = _; rw [a1]; omega⟩)
    (fun z => ⟨by show win2_1.index t (0 : Fin 2) * 1 + 1 * (z 0).val = _; rw [b0]; omega, by show win2_1.index t (1 : Fin 2) * 96 + 1 * (z 1).val = _; rw [b1]; omega⟩)
    (fun z => ⟨by show win2_2.index t (0 : Fin 2) * 96 + 1 * (z 0).val = _; rw [w0]; omega, by show win2_2.index t (1 : Fin 2) * 96 + 1 * (z 1).val = _; rw [w1]; omega⟩)
    y _ ?_ ?_
  · show win2_3.index t (0 : Fin 2) * 2000 + 1 * (y 0).val = _; rw [o0]; omega
  · show win2_3.index t (1 : Fin 2) * 96 + 1 * (y 1).val = _; rw [o1]; omega

/-- An entry of the output array lies in point t's block iff its row is one of the tile's 2000 and its column one of the 96. -/
theorem in_block2 (t : Fin cfg2.N) (i : S50000x96.Idx) :
    i ∈ ((cfg2.win 3).blk t).view.set ↔ ∀ a : Fin 2, win2_3.index t a * S2000x96.size a ≤ (i a).val ∧ (i a).val < win2_3.index t a * S2000x96.size a + S2000x96.size a := by
  show i ∈ ((View.whole main_v63).slice (win2_3.rect t)).set ↔ _
  rw [View.set_slice_whole, Rect.mem_set_unit]
  exact Iff.rfl

/-- The 25 tiles cover the array: row n is in tile n / 2000. So after the grid the output array IS that function. -/
theorem array2 (c : Dev nD) : (dat2 V c).arrAt 3 cfg2.N = (biasedProduct (V c main_v61) (V c main_v62) (V c main_arg7)) :=
  (dat2 V c).arrAt_eq_of_cover 3 _ (fun t _ => written2 V c t) fun i => by
    have hr : (i 0).val < 50000 := (i 0).isLt
    have hc : (i 1).val < 96 := (i 1).isLt
    have hN : cfg2.N = 25 := N_2
    refine ⟨⟨(i 0).val / 2000, by rw [hN]; omega⟩, flush2_3 _, ?_⟩
    rw [in_block2]
    obtain ⟨-, -, -, -, -, -, o0, o1⟩ := blocks_at2 ⟨(i 0).val / 2000, by rw [hN]; omega⟩
    intro a
    match a with
    | ⟨0, _⟩ => show win2_3.index _ (0 : Fin 2) * 2000 ≤ (i 0).val ∧ (i 0).val < win2_3.index _ (0 : Fin 2) * 2000 + 2000; rw [o0]; show (i 0).val / 2000 * 2000 ≤ (i 0).val ∧ (i 0).val < (i 0).val / 2000 * 2000 + 2000; omega
    | ⟨1, _⟩ => show win2_3.index _ (1 : Fin 2) * 96 ≤ (i 1).val ∧ (i 1).val < win2_3.index _ (1 : Fin 2) * 96 + 96; rw [o1]; omega

end Cert.KernelIdeal.Arrays

end
-- ==== Proof.RefLayers.lean ====
/-
  The reference's three dense steps, read as the layer functions.

  The reference computes each layer's dense part on the host: one dot_general contracting the 96 features, and between
  layers a bias added to every row followed by a maximum with zero. Read entry by entry on extended reals, the
  dot_general is the matrix product `project` and the bias-and-maximum is `activate`; the gather, scaling and
  scatter-add around them are left as the host operations they are.
-/
import proofs.«102974_j66915590472494_1_alg».proof.Proof.Gen.ReferenceIdeal.Read
import proofs.«102974_j66915590472494_1_alg».proof.Proof.Layer

noncomputable section

namespace Cert.ReferenceIdeal.Layers

open Cert.ReferenceIdeal Cert.ReferenceIdeal.Gen Cert.ReferenceIdeal.Read Idealize.ShloMosaic Idealize.ShloMosaic.ValueIdx
open scoped BigOperators

/-- The host's contraction of the features of a node array with the rows of a weight matrix is the matrix product. -/
theorem dot_is_project (h : FVec Ideal S50000x96 .f32) (W : FVec Ideal S96x96 .f32) :
    Host.dotGeneral (F := Ideal) dot_S50000x96_S96x96_S50000x96_1_0_0_1_n_n none h W = Layer.project h W := by
  funext i
  refine (val_main_v33_apply h W i).trans ?_
  rw [Layer.project_apply]
  refine Finset.sum_congr rfl fun k _ => ?_
  have el : lidx_main_v33 i k = ix2 (Layer.node i) k := funext fun a => by match a with | ⟨0, _⟩ => rfl | ⟨1, _⟩ => rfl
  have er : ridx_main_v33 i k = ix2 k (Layer.feat i) := funext fun a => by match a with | ⟨0, _⟩ => rfl | ⟨1, _⟩ => rfl
  rw [el, er]

/-- Between the first and second layers: the host adds the bias, broadcast to a 1 x 96 row and then down the 50000 rows, and takes the maximum with the
    zero constant broadcast to the whole shape — entry by entry, `activate`. -/
theorem val_main_v50_is_activate (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S96x96, .f32⟩ : BufTy).Contents (Elt Ideal)) (x4 : (⟨S96, .f32⟩ : BufTy).Contents (Elt Ideal)) :
    val_main_v50 (F := Ideal) x0 x1 x2 x3 x4 = Layer.activate (val_main_v46 (F := Ideal) x0 x1 x2 x3) x4 := by
  funext i
  obtain ⟨n, k, rfl⟩ : ∃ (n : Fin 50000) (k : Fin 96), i = ix2 n k := ⟨i 0, i 1, eq_ix2 i⟩
  rw [val_main_v50_apply, val_main_v49_apply, val_main_v48_apply, val_main_v47_apply, val_main_call1_v0_apply, val_main_call1_cst_apply, Layer.activate_apply]
  have e : idx_main_v47 (idx_main_v48 (ix2 n k)) = ix1 k := funext fun a => by match a with | ⟨0, _⟩ => rfl
  rw [e]
  rfl

/-- Between the second and third layers: the host adds the bias, broadcast to a 1 x 96 row and then down the 50000 rows, and takes the maximum with the
    zero constant broadcast to the whole shape — entry by entry, `activate`. -/
theorem val_main_v97_is_activate (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S96x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) :
    val_main_v97 (F := Ideal) x0 x1 x2 x3 x4 x5 x6 = Layer.activate (val_main_v93 (F := Ideal) x0 x1 x2 x3 x4 x5) x6 := by
  funext i
  obtain ⟨n, k, rfl⟩ : ∃ (n : Fin 50000) (k : Fin 96), i = ix2 n k := ⟨i 0, i 1, eq_ix2 i⟩
  rw [val_main_v97_apply, val_main_v96_apply, val_main_v95_apply, val_main_v94_apply, val_main_call3_v0_apply, val_main_call3_cst_apply, Layer.activate_apply]
  have e : idx_main_v94 (idx_main_v95 (ix2 n k)) = ix1 k := funext fun a => by match a with | ⟨0, _⟩ => rfl
  rw [e]
  rfl

/-- The first layer's projection. -/
theorem first_projection (x0 : (⟨S50000x96, .f32⟩ : BufTy).Contents (Elt Ideal)) (x3 : (⟨S96x96, .f32⟩ : BufTy).Contents (Elt Ideal)) : val_main_v33 (F := Ideal) x0 x3 = Layer.project x0 x3 :=
  dot_is_project x0 x3

/-- The second layer's projection, of the activated first aggregate. -/
theorem second_projection (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S96x96, .f32⟩ : BufTy).Contents (Elt Ideal)) (x4 : (⟨S96, .f32⟩ : BufTy).Contents (Elt Ideal)) (x5 : (⟨S96x96, .f32⟩ : BufTy).Contents (Elt Ideal)) :
    val_main_v80 (F := Ideal) x0 x1 x2 x3 x4 x5 = Layer.project (Layer.activate (val_main_v46 (F := Ideal) x0 x1 x2 x3) x4) x5 := by
  unfold val_main_v80
  rw [dot_is_project, val_main_v50_is_activate]

/-- The third layer's projection, of the activated second aggregate. -/
theorem third_projection (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S96x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) (x7 : (⟨S96x96, .f32⟩ : BufTy).Contents (Elt Ideal)) :
    val_main_v127 (F := Ideal) x0 x1 x2 x3 x4 x5 x6 x7 = Layer.project (Layer.activate (val_main_v93 (F := Ideal) x0 x1 x2 x3 x4 x5) x6) x7 := by
  unfold val_main_v127
  rw [dot_is_project, val_main_v97_is_activate]

end Cert.ReferenceIdeal.Layers

end
-- ==== Proof.Boundaries.lean ====
/-
  The idealized kernel's buffers, boundary by boundary, named by the reference's own stages.

  The kernel computes the edge normalisation once, before its first grid; the reference computes the same host
  operations once per layer. Around each grid the kernel runs the same gather, scaling and scatter-add as the reference
  does around its dot_general. So each buffer a later segment reads holds, at that boundary, the value of a reference
  stage at the launch arguments:
    the padded source and destination indices and the edge normalisation, from the first stretches on;
    after grid 1 its output is the first projection; the stretch after it leaves the first aggregate and the first bias as a row;
    after grid 2 its output is the second projection (of the activated first aggregate); then the second aggregate;
    after grid 3 its output is the third projection; the last stretch adds the third bias to the third aggregate.
  A buffer no stretch and no grid writes keeps its contents across them. The only arithmetic is inside the grids (module
  Arrays) and in reading dot_general (module RefLayers); everything else is the same text on both sides.
-/
import proofs.«102974_j66915590472494_1_alg».proof.Proof.Gen.KernelIdeal.Frame
import proofs.«102974_j66915590472494_1_alg».proof.Proof.Arrays
import proofs.«102974_j66915590472494_1_alg».proof.Proof.Layer
import proofs.«102974_j66915590472494_1_alg».proof.Proof.RefLayers
import Idealize.ShloMosaic.Lib.ValueLayout
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo (after_of_forall_not_mem)
open Idealize.ShloMosaic.ValueIdx
open Cert.ReferenceIdeal.Read Cert.ReferenceIdeal.Layers
open scoped BigOperators

/-- A stretch of host operations leaves a buffer none of them writes as it found it. -/
macro "kept_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-- Argument 0 as launched, typed as the reference's stage functions take it. -/
abbrev a0 : (⟨Cert.ReferenceIdeal.S50000x96, .f32⟩ : BufTy).Contents (Elt Ideal) := m ((c : Thread nD τ).loc main_arg0)
/-- Argument 1 as launched, typed as the reference's stage functions take it. -/
abbrev a1 : (⟨Cert.ReferenceIdeal.S2x800000, .i32⟩ : BufTy).Contents (Elt Ideal) := m ((c : Thread nD τ).loc main_arg1)
/-- Argument 2 as launched, typed as the reference's stage functions take it. -/
abbrev a2 : (⟨Cert.ReferenceIdeal.S800000, .f32⟩ : BufTy).Contents (Elt Ideal) := m ((c : Thread nD τ).loc main_arg2)
/-- Argument 3 as launched, typed as the reference's stage functions take it. -/
abbrev a3 : (⟨Cert.ReferenceIdeal.S96x96, .f32⟩ : BufTy).Contents (Elt Ideal) := m ((c : Thread nD τ).loc main_arg3)
/-- Argument 4 as launched, typed as the reference's stage functions take it. -/
abbrev a4 : (⟨Cert.ReferenceIdeal.S96, .f32⟩ : BufTy).Contents (Elt Ideal) := m ((c : Thread nD τ).loc main_arg4)
/-- Argument 5 as launched, typed as the reference's stage functions take it. -/
abbrev a5 : (⟨Cert.ReferenceIdeal.S96x96, .f32⟩ : BufTy).Contents (Elt Ideal) := m ((c : Thread nD τ).loc main_arg5)
/-- Argument 6 as launched, typed as the reference's stage functions take it. -/
abbrev a6 : (⟨Cert.ReferenceIdeal.S96, .f32⟩ : BufTy).Contents (Elt Ideal) := m ((c : Thread nD τ).loc main_arg6)
/-- Argument 7 as launched, typed as the reference's stage functions take it. -/
abbrev a7 : (⟨Cert.ReferenceIdeal.S96x96, .f32⟩ : BufTy).Contents (Elt Ideal) := m ((c : Thread nD τ).loc main_arg7)
/-- Argument 8 as launched, typed as the reference's stage functions take it. -/
abbrev a8 : (⟨Cert.ReferenceIdeal.S96, .f32⟩ : BufTy).Contents (Elt Ideal) := m ((c : Thread nD τ).loc main_arg8)

/-! ## The arguments where they are read -/

/-- Argument 0 is as launched when the first grid reads it: nothing before writes it. -/
theorem arg0_at3 : W3 m ρ c (Proc.devRef .tc main_arg0) = a0 m c :=
  (show StableHlo.after hostOps0_2 (W2 m ρ c) (Proc.devRef .tc main_arg0) = W2 m ρ c (Proc.devRef .tc main_arg0) from by kept_by hostOps0_2).trans
    ((show StableHlo.after hostOps0_1 (W1 m ρ c) (Proc.devRef .tc main_arg0) = W1 m ρ c (Proc.devRef .tc main_arg0) from by kept_by hostOps0_1).trans
    ((show StableHlo.after hostOps0 (W0 m ρ c) (Proc.devRef .tc main_arg0) = W0 m ρ c (Proc.devRef .tc main_arg0) from by kept_by hostOps0).trans
    (rfl)))
/-- Argument 3 is as launched when the first grid reads it: nothing before writes it. -/
theorem arg3_at3 : W3 m ρ c (Proc.devRef .tc main_arg3) = a3 m c :=
  (show StableHlo.after hostOps0_2 (W2 m ρ c) (Proc.devRef .tc main_arg3) = W2 m ρ c (Proc.devRef .tc main_arg3) from by kept_by hostOps0_2).trans
    ((show StableHlo.after hostOps0_1 (W1 m ρ c) (Proc.devRef .tc main_arg3) = W1 m ρ c (Proc.devRef .tc main_arg3) from by kept_by hostOps0_1).trans
    ((show StableHlo.after hostOps0 (W0 m ρ c) (Proc.devRef .tc main_arg3) = W0 m ρ c (Proc.devRef .tc main_arg3) from by kept_by hostOps0).trans
    (rfl)))
/-- Argument 4 is as launched when the stretch after the first grid reads it: nothing before writes it. -/
theorem arg4_at4 : W4 m ρ c (Proc.devRef .tc main_arg4) = a4 m c :=
  (W4_of_ne m ρ c main_arg4 (by decide)).trans
    ((show StableHlo.after hostOps0_2 (W2 m ρ c) (Proc.devRef .tc main_arg4) = W2 m ρ c (Proc.devRef .tc main_arg4) from by kept_by hostOps0_2).trans
    ((show StableHlo.after hostOps0_1 (W1 m ρ c) (Proc.devRef .tc main_arg4) = W1 m ρ c (Proc.devRef .tc main_arg4) from by kept_by hostOps0_1).trans
    ((show StableHlo.after hostOps0 (W0 m ρ c) (Proc.devRef .tc main_arg4) = W0 m ρ c (Proc.devRef .tc main_arg4) from by kept_by hostOps0).trans
    (rfl))))
/-- Argument 5 is as launched when the second grid reads it: nothing before writes it. -/
theorem arg5_at5 : W5 m ρ c (Proc.devRef .tc main_arg5) = a5 m c :=
  (show StableHlo.after hostOps1 (W4 m ρ c) (Proc.devRef .tc main_arg5) = W4 m ρ c (Proc.devRef .tc main_arg5) from by kept_by hostOps1).trans
    ((W4_of_ne m ρ c main_arg5 (by decide)).trans
    ((show StableHlo.after hostOps0_2 (W2 m ρ c) (Proc.devRef .tc main_arg5) = W2 m ρ c (Proc.devRef .tc main_arg5) from by kept_by hostOps0_2).trans
    ((show StableHlo.after hostOps0_1 (W1 m ρ c) (Proc.devRef .tc main_arg5) = W1 m ρ c (Proc.devRef .tc main_arg5) from by kept_by hostOps0_1).trans
    ((show StableHlo.after hostOps0 (W0 m ρ c) (Proc.devRef .tc main_arg5) = W0 m ρ c (Proc.devRef .tc main_arg5) from by kept_by hostOps0).trans
    (rfl)))))
/-- Argument 6 is as launched when the stretch after the second grid reads it: nothing before writes it. -/
theorem arg6_at6 : W6 m ρ c (Proc.devRef .tc main_arg6) = a6 m c :=
  (W6_of_ne m ρ c main_arg6 (by decide)).trans
    ((show StableHlo.after hostOps1 (W4 m ρ c) (Proc.devRef .tc main_arg6) = W4 m ρ c (Proc.devRef .tc main_arg6) from by kept_by hostOps1).trans
    ((W4_of_ne m ρ c main_arg6 (by decide)).trans
    ((show StableHlo.after hostOps0_2 (W2 m ρ c) (Proc.devRef .tc main_arg6) = W2 m ρ c (Proc.devRef .tc main_arg6) from by kept_by hostOps0_2).trans
    ((show StableHlo.after hostOps0_1 (W1 m ρ c) (Proc.devRef .tc main_arg6) = W1 m ρ c (Proc.devRef .tc main_arg6) from by kept_by hostOps0_1).trans
    ((show StableHlo.after hostOps0 (W0 m ρ c) (Proc.devRef .tc main_arg6) = W0 m ρ c (Proc.devRef .tc main_arg6) from by kept_by hostOps0).trans
    (rfl))))))
/-- Argument 7 is as launched when the third grid reads it: nothing before writes it. -/
theorem arg7_at7 : W7 m ρ c (Proc.devRef .tc main_arg7) = a7 m c :=
  (show StableHlo.after hostOps2 (W6 m ρ c) (Proc.devRef .tc main_arg7) = W6 m ρ c (Proc.devRef .tc main_arg7) from by kept_by hostOps2).trans
    ((W6_of_ne m ρ c main_arg7 (by decide)).trans
    ((show StableHlo.after hostOps1 (W4 m ρ c) (Proc.devRef .tc main_arg7) = W4 m ρ c (Proc.devRef .tc main_arg7) from by kept_by hostOps1).trans
    ((W4_of_ne m ρ c main_arg7 (by decide)).trans
    ((show StableHlo.after hostOps0_2 (W2 m ρ c) (Proc.devRef .tc main_arg7) = W2 m ρ c (Proc.devRef .tc main_arg7) from by kept_by hostOps0_2).trans
    ((show StableHlo.after hostOps0_1 (W1 m ρ c) (Proc.devRef .tc main_arg7) = W1 m ρ c (Proc.devRef .tc main_arg7) from by kept_by hostOps0_1).trans
    ((show StableHlo.after hostOps0 (W0 m ρ c) (Proc.devRef .tc main_arg7) = W0 m ρ c (Proc.devRef .tc main_arg7) from by kept_by hostOps0).trans
    (rfl)))))))
/-- Argument 8 is as launched when the last stretch reads it: nothing before writes it. -/
theorem arg8_at8 : W8 m ρ c (Proc.devRef .tc main_arg8) = a8 m c :=
  (W8_of_ne m ρ c main_arg8 (by decide)).trans
    ((show StableHlo.after hostOps2 (W6 m ρ c) (Proc.devRef .tc main_arg8) = W6 m ρ c (Proc.devRef .tc main_arg8) from by kept_by hostOps2).trans
    ((W6_of_ne m ρ c main_arg8 (by decide)).trans
    ((show StableHlo.after hostOps1 (W4 m ρ c) (Proc.devRef .tc main_arg8) = W4 m ρ c (Proc.devRef .tc main_arg8) from by kept_by hostOps1).trans
    ((W4_of_ne m ρ c main_arg8 (by decide)).trans
    ((show StableHlo.after hostOps0_2 (W2 m ρ c) (Proc.devRef .tc main_arg8) = W2 m ρ c (Proc.devRef .tc main_arg8) from by kept_by hostOps0_2).trans
    ((show StableHlo.after hostOps0_1 (W1 m ρ c) (Proc.devRef .tc main_arg8) = W1 m ρ c (Proc.devRef .tc main_arg8) from by kept_by hostOps0_1).trans
    ((show StableHlo.after hostOps0 (W0 m ρ c) (Proc.devRef .tc main_arg8) = W0 m ρ c (Proc.devRef .tc main_arg8) from by kept_by hostOps0).trans
    (rfl))))))))
/-- Argument 1 is as launched when the last stretch reads it: nothing before writes it. -/
theorem arg1_at0 : W0 m ρ c (Proc.devRef .tc main_arg1) = a1 m c :=
  rfl
/-- Argument 2 is as launched when the last stretch reads it: nothing before writes it. -/
theorem arg2_at0 : W0 m ρ c (Proc.devRef .tc main_arg2) = a2 m c :=
  rfl

/-! ## The padded indices and the edge normalisation: computed before the first grid, read around every grid -/

/-- The source indices with the self loops appended, after the first stretch. -/
theorem v5_at1 : W1 m ρ c (Proc.devRef .tc main_v5) = val_main_v5 (F := Ideal) (a1 m c) := by
  show StableHlo.after hostOps0 (W0 m ρ c) (Proc.devRef .tc main_v5) = _
  dsimp only [hostOps0]
  after_results_simp
  rfl

/-- The destination indices with the self loops appended. -/
theorem v6_at1 : W1 m ρ c (Proc.devRef .tc main_v6) = val_main_v6 (F := Ideal) (a1 m c) := by
  show StableHlo.after hostOps0 (W0 m ρ c) (Proc.devRef .tc main_v6) = _
  dsimp only [hostOps0]
  after_results_simp
  rfl

/-- The edge weights with the self loops' ones appended. -/
theorem v8_at1 : W1 m ρ c (Proc.devRef .tc main_v8) = val_main_v8 (F := Ideal) (a2 m c) := by
  show StableHlo.after hostOps0 (W0 m ρ c) (Proc.devRef .tc main_v8) = _
  dsimp only [hostOps0]
  after_results_simp
  rfl

/-- Where the weighted in-degree is positive. -/
theorem v13_at1 : W1 m ρ c (Proc.devRef .tc main_v13) = val_main_v13 (F := Ideal) (a1 m c) (a2 m c) := by
  show StableHlo.after hostOps0 (W0 m ρ c) (Proc.devRef .tc main_v13) = _
  dsimp only [hostOps0]
  after_results_simp
  rfl

/-- The inverse square root of the weighted in-degree. -/
theorem v14_at1 : W1 m ρ c (Proc.devRef .tc main_v14) = val_main_v14 (F := Ideal) (a1 m c) (a2 m c) := by
  show StableHlo.after hostOps0 (W0 m ρ c) (Proc.devRef .tc main_v14) = _
  dsimp only [hostOps0]
  after_results_simp
  rfl

/-- The zeros the select falls back to. -/
theorem v15_at1 : W1 m ρ c (Proc.devRef .tc main_v15) = val_main_v15 (F := Ideal) := by
  show StableHlo.after hostOps0 (W0 m ρ c) (Proc.devRef .tc main_v15) = _
  dsimp only [hostOps0]
  after_results_simp
  rfl

/-- The inverse root degree, zero where the degree is not positive: the second stretch's one select. -/
theorem v16_at2 : W2 m ρ c (Proc.devRef .tc main_v16) = val_main_v16 (F := Ideal) (a1 m c) (a2 m c) := by
  have h0 := v13_at1 m ρ c
  have h1 := v14_at1 m ρ c
  have h2 := v15_at1 m ρ c
  show StableHlo.after hostOps0_1 (W1 m ρ c) (Proc.devRef .tc main_v16) = _
  generalize W1 m ρ c = Wx at h0 h1 h2 ⊢
  dsimp only [hostOps0_1]
  after_results_simp
  rw [h0, h1, h2]
  unfold val_main_v16
  exact (cast_eq _ _).trans (congr (congr (congrArg select (cast_eq _ _)) (cast_eq _ _)) (cast_eq _ _))

/-- The edge normalisation: inverse root degree of the source, times the weight, times that of the destination. -/
theorem v32_at3 : W3 m ρ c (Proc.devRef .tc main_v32) = val_main_v32 (F := Ideal) (a1 m c) (a2 m c) := by
  have h0 := v16_at2 m ρ c
  have h1 := (show W2 m ρ c (Proc.devRef .tc main_v5) = val_main_v5 (F := Ideal) (a1 m c) from (show StableHlo.after hostOps0_1 (W1 m ρ c) (Proc.devRef .tc main_v5) = W1 m ρ c (Proc.devRef .tc main_v5) from by kept_by hostOps0_1).trans
    (v5_at1 m ρ c))
  have h2 := (show W2 m ρ c (Proc.devRef .tc main_v6) = val_main_v6 (F := Ideal) (a1 m c) from (show StableHlo.after hostOps0_1 (W1 m ρ c) (Proc.devRef .tc main_v6) = W1 m ρ c (Proc.devRef .tc main_v6) from by kept_by hostOps0_1).trans
    (v6_at1 m ρ c))
  have h3 := (show W2 m ρ c (Proc.devRef .tc main_v8) = val_main_v8 (F := Ideal) (a2 m c) from (show StableHlo.after hostOps0_1 (W1 m ρ c) (Proc.devRef .tc main_v8) = W1 m ρ c (Proc.devRef .tc main_v8) from by kept_by hostOps0_1).trans
    (v8_at1 m ρ c))
  show StableHlo.after hostOps0_2 (W2 m ρ c) (Proc.devRef .tc main_v32) = _
  generalize W2 m ρ c = Wx at h0 h1 h2 h3 ⊢
  dsimp only [hostOps0_2]
  after_results_simp
  rw [h0, h1, h2, h3]
  rfl

theorem v5_at3 : W3 m ρ c (Proc.devRef .tc main_v5) = val_main_v5 (F := Ideal) (a1 m c) :=
  (show StableHlo.after hostOps0_2 (W2 m ρ c) (Proc.devRef .tc main_v5) = W2 m ρ c (Proc.devRef .tc main_v5) from by kept_by hostOps0_2).trans
    ((show StableHlo.after hostOps0_1 (W1 m ρ c) (Proc.devRef .tc main_v5) = W1 m ρ c (Proc.devRef .tc main_v5) from by kept_by hostOps0_1).trans
    (v5_at1 m ρ c))

theorem v6_at3 : W3 m ρ c (Proc.devRef .tc main_v6) = val_main_v6 (F := Ideal) (a1 m c) :=
  (show StableHlo.after hostOps0_2 (W2 m ρ c) (Proc.devRef .tc main_v6) = W2 m ρ c (Proc.devRef .tc main_v6) from by kept_by hostOps0_2).trans
    ((show StableHlo.after hostOps0_1 (W1 m ρ c) (Proc.devRef .tc main_v6) = W1 m ρ c (Proc.devRef .tc main_v6) from by kept_by hostOps0_1).trans
    (v6_at1 m ρ c))

/-! Carried across the grids and the stretches between them: none of them writes these three. -/

theorem v5_at4 : W4 m ρ c (Proc.devRef .tc main_v5) = val_main_v5 (F := Ideal) (a1 m c) :=
  (W4_of_ne m ρ c main_v5 (by decide)).trans
    (v5_at3 m ρ c)
theorem v6_at4 : W4 m ρ c (Proc.devRef .tc main_v6) = val_main_v6 (F := Ideal) (a1 m c) :=
  (W4_of_ne m ρ c main_v6 (by decide)).trans
    (v6_at3 m ρ c)
theorem v32_at4 : W4 m ρ c (Proc.devRef .tc main_v32) = val_main_v32 (F := Ideal) (a1 m c) (a2 m c) :=
  (W4_of_ne m ρ c main_v32 (by decide)).trans
    (v32_at3 m ρ c)
theorem v5_at6 : W6 m ρ c (Proc.devRef .tc main_v5) = val_main_v5 (F := Ideal) (a1 m c) :=
  (W6_of_ne m ρ c main_v5 (by decide)).trans
    ((show StableHlo.after hostOps1 (W4 m ρ c) (Proc.devRef .tc main_v5) = W4 m ρ c (Proc.devRef .tc main_v5) from by kept_by hostOps1).trans
    ((W4_of_ne m ρ c main_v5 (by decide)).trans
    (v5_at3 m ρ c)))
theorem v6_at6 : W6 m ρ c (Proc.devRef .tc main_v6) = val_main_v6 (F := Ideal) (a1 m c) :=
  (W6_of_ne m ρ c main_v6 (by decide)).trans
    ((show StableHlo.after hostOps1 (W4 m ρ c) (Proc.devRef .tc main_v6) = W4 m ρ c (Proc.devRef .tc main_v6) from by kept_by hostOps1).trans
    ((W4_of_ne m ρ c main_v6 (by decide)).trans
    (v6_at3 m ρ c)))
theorem v32_at6 : W6 m ρ c (Proc.devRef .tc main_v32) = val_main_v32 (F := Ideal) (a1 m c) (a2 m c) :=
  (W6_of_ne m ρ c main_v32 (by decide)).trans
    ((show StableHlo.after hostOps1 (W4 m ρ c) (Proc.devRef .tc main_v32) = W4 m ρ c (Proc.devRef .tc main_v32) from by kept_by hostOps1).trans
    ((W4_of_ne m ρ c main_v32 (by decide)).trans
    (v32_at3 m ρ c)))
theorem v5_at8 : W8 m ρ c (Proc.devRef .tc main_v5) = val_main_v5 (F := Ideal) (a1 m c) :=
  (W8_of_ne m ρ c main_v5 (by decide)).trans
    ((show StableHlo.after hostOps2 (W6 m ρ c) (Proc.devRef .tc main_v5) = W6 m ρ c (Proc.devRef .tc main_v5) from by kept_by hostOps2).trans
    ((W6_of_ne m ρ c main_v5 (by decide)).trans
    ((show StableHlo.after hostOps1 (W4 m ρ c) (Proc.devRef .tc main_v5) = W4 m ρ c (Proc.devRef .tc main_v5) from by kept_by hostOps1).trans
    ((W4_of_ne m ρ c main_v5 (by decide)).trans
    (v5_at3 m ρ c)))))
theorem v6_at8 : W8 m ρ c (Proc.devRef .tc main_v6) = val_main_v6 (F := Ideal) (a1 m c) :=
  (W8_of_ne m ρ c main_v6 (by decide)).trans
    ((show StableHlo.after hostOps2 (W6 m ρ c) (Proc.devRef .tc main_v6) = W6 m ρ c (Proc.devRef .tc main_v6) from by kept_by hostOps2).trans
    ((W6_of_ne m ρ c main_v6 (by decide)).trans
    ((show StableHlo.after hostOps1 (W4 m ρ c) (Proc.devRef .tc main_v6) = W4 m ρ c (Proc.devRef .tc main_v6) from by kept_by hostOps1).trans
    ((W4_of_ne m ρ c main_v6 (by decide)).trans
    (v6_at3 m ρ c)))))
theorem v32_at8 : W8 m ρ c (Proc.devRef .tc main_v32) = val_main_v32 (F := Ideal) (a1 m c) (a2 m c) :=
  (W8_of_ne m ρ c main_v32 (by decide)).trans
    ((show StableHlo.after hostOps2 (W6 m ρ c) (Proc.devRef .tc main_v32) = W6 m ρ c (Proc.devRef .tc main_v32) from by kept_by hostOps2).trans
    ((W6_of_ne m ρ c main_v32 (by decide)).trans
    ((show StableHlo.after hostOps1 (W4 m ρ c) (Proc.devRef .tc main_v32) = W4 m ρ c (Proc.devRef .tc main_v32) from by kept_by hostOps1).trans
    ((W4_of_ne m ρ c main_v32 (by decide)).trans
    (v32_at3 m ρ c)))))

/-! ## The first layer -/

/-- After the first grid its output array is the first projection. -/
theorem v33_at4 : W4 m ρ c (Proc.devRef .tc main_v33) = val_main_v33 (F := Ideal) (a0 m c) (a3 m c) := by
  refine (W4_arr m ρ c 2).trans ((Arrays.array0 (V3 m ρ) c).trans ?_)
  rw [first_projection]
  exact congrArg₂ Layer.project (arg0_at3 m ρ c) (arg3_at3 m ρ c)

/-- The first aggregate: messages gathered at the sources, scaled, and added up at the destinations. -/
theorem v46_at5 : W5 m ρ c (Proc.devRef .tc main_v46) = val_main_v46 (F := Ideal) (a0 m c) (a1 m c) (a2 m c) (a3 m c) := by
  have h0 := v33_at4 m ρ c
  have h1 := v5_at4 m ρ c
  have h2 := v6_at4 m ρ c
  have h3 := v32_at4 m ρ c
  show StableHlo.after hostOps1 (W4 m ρ c) (Proc.devRef .tc main_v46) = _
  generalize W4 m ρ c = Wx at h0 h1 h2 h3 ⊢
  dsimp only [hostOps1]
  after_results_simp
  rw [h0, h1, h2, h3]
  rfl

/-- The first bias, reshaped to a row for the second grid. -/
theorem v47_at5 : W5 m ρ c (Proc.devRef .tc main_v47) = shapeCast S1x96 (a4 m c) shapeCasts_S96_S1x96 := by
  have h0 := arg4_at4 m ρ c
  show StableHlo.after hostOps1 (W4 m ρ c) (Proc.devRef .tc main_v47) = _
  generalize W4 m ρ c = Wx at h0 ⊢
  dsimp only [hostOps1]
  after_results_simp
  rw [h0]
  rfl

/-- A grid's biased product, its bias a vector reshaped to a row, is the projection of the activated operand. -/
theorem biased_is_layer (a : S50000x96.Idx → EReal) (b : S96.Idx → EReal) (W : S96x96.Idx → EReal) :
    Arrays.biasedProduct a (shapeCast S1x96 b shapeCasts_S96_S1x96) W = Layer.project (Layer.activate a b) W := by
  funext i
  unfold Arrays.biasedProduct
  rw [Layer.project_apply]
  refine Finset.sum_congr rfl fun k _ => ?_
  rw [Layer.activate_apply, shapeCast_a_1a_apply]

/-! ## The second layer -/

/-- After the second grid its output array is the second projection. -/
theorem v48_at6 : W6 m ρ c (Proc.devRef .tc main_v48) = val_main_v80 (F := Ideal) (a0 m c) (a1 m c) (a2 m c) (a3 m c) (a4 m c) (a5 m c) := by
  refine (W6_arr m ρ c 3).trans ((Arrays.array1 (V5 m ρ) c).trans ?_)
  rw [second_projection, ← biased_is_layer]
  exact congr (congrArg₂ Arrays.biasedProduct (v46_at5 m ρ c) (v47_at5 m ρ c)) (arg5_at5 m ρ c)

/-- The second aggregate. -/
theorem v61_at7 : W7 m ρ c (Proc.devRef .tc main_v61) = val_main_v93 (F := Ideal) (a0 m c) (a1 m c) (a2 m c) (a3 m c) (a4 m c) (a5 m c) := by
  have h0 := v48_at6 m ρ c
  have h1 := v5_at6 m ρ c
  have h2 := v6_at6 m ρ c
  have h3 := v32_at6 m ρ c
  show StableHlo.after hostOps2 (W6 m ρ c) (Proc.devRef .tc main_v61) = _
  generalize W6 m ρ c = Wx at h0 h1 h2 h3 ⊢
  dsimp only [hostOps2]
  after_results_simp
  rw [h0, h1, h2, h3]
  rfl

/-- The second bias, reshaped to a row for the third grid. -/
theorem v62_at7 : W7 m ρ c (Proc.devRef .tc main_v62) = shapeCast S1x96 (a6 m c) shapeCasts_S96_S1x96 := by
  have h0 := arg6_at6 m ρ c
  show StableHlo.after hostOps2 (W6 m ρ c) (Proc.devRef .tc main_v62) = _
  generalize W6 m ρ c = Wx at h0 ⊢
  dsimp only [hostOps2]
  after_results_simp
  rw [h0]
  rfl

/-! ## The third layer -/

/-- After the third grid its output array is the third projection. -/
theorem v63_at8 : W8 m ρ c (Proc.devRef .tc main_v63) = val_main_v127 (F := Ideal) (a0 m c) (a1 m c) (a2 m c) (a3 m c) (a4 m c) (a5 m c) (a6 m c) (a7 m c) := by
  refine (W8_arr m ρ c 3).trans ((Arrays.array2 (V7 m ρ) c).trans ?_)
  rw [third_projection, ← biased_is_layer]
  exact congr (congrArg₂ Arrays.biasedProduct (v61_at7 m ρ c) (v62_at7 m ρ c)) (arg7_at7 m ρ c)

/-- THE RESULT: the third aggregate plus the third bias, which is the reference's last stage at the launch arguments. -/
theorem result : W9 m ρ c (Proc.devRef .tc main_v79) = val_main_v143 (F := Ideal) (a0 m c) (a1 m c) (a2 m c) (a3 m c) (a4 m c) (a5 m c) (a6 m c) (a7 m c) (a8 m c) := by
  have h0 := v63_at8 m ρ c
  have h1 := v5_at8 m ρ c
  have h2 := v6_at8 m ρ c
  have h3 := v32_at8 m ρ c
  have h4 := arg8_at8 m ρ c
  show StableHlo.after hostOps3 (W8 m ρ c) (Proc.devRef .tc main_v79) = _
  generalize W8 m ρ c = Wx at h0 h1 h2 h3 h4 ⊢
  dsimp only [hostOps3]
  after_results_simp
  rw [h0, h1, h2, h3, h4]
  rfl

end Cert.KernelIdeal.Boundaries

end
-- ==== Proof.lean ====
/-
  Three graph-convolution layers: the Pallas kernel against the jnp reference, on extended reals.

  Both programs compute, per layer, the node-wise product of the features with a 96 x 96 weight matrix, gather the
  products at the edges' sources, scale them by the symmetric edge normalisation, add them up at the destinations, and
  add a bias; between layers a rectifier. The kernel runs the three products (the second and third fused with the bias
  and the rectifier before them) as three grids of 25 row tiles on the matrix unit and computes the normalisation once;
  the reference uses dot_general and computes the normalisation once per layer. On extended reals rounding to bf16 is
  the identity and a tile of a matrix product is the matrix product's tile, so the two results are the same stage of
  the same host operations: no law beyond re-indexing the 96-term sums is needed, and the precondition is never opened.

  Modules: Layer (a layer's dense part as whole-array functions), LibDense (a dense contraction read at an entry),
  Tiles (what each kernel stores, at an entry), Arrays (from the 25 tiles to the whole output array), WholeRun (the
  program's run with every buffer named), RefLayers (the reference's dot_general and rectifier as the layer
  functions), Boundaries (the kernel's buffers, segment by segment, as the reference's stages).
-/
import proofs.«102974_j66915590472494_1_alg».proof.Defs
import proofs.«102974_j66915590472494_1_alg».proof.Proof.Gen.Kernel
import proofs.«102974_j66915590472494_1_alg».proof.Proof.Gen.Kernel.Frame
import proofs.«102974_j66915590472494_1_alg».proof.Proof.Gen.KernelIdeal
import proofs.«102974_j66915590472494_1_alg».proof.Proof.Gen.KernelIdeal.Frame
import proofs.«102974_j66915590472494_1_alg».proof.Proof.Gen.ReferenceIdeal
import proofs.«102974_j66915590472494_1_alg».proof.Proof.Gen.ReferenceIdeal.Run
import proofs.«102974_j66915590472494_1_alg».proof.Proof.Gen.ReferenceIdeal.Read
import proofs.«102974_j66915590472494_1_alg».proof.Proof.Gen.Pre_finite_inputs
import proofs.«102974_j66915590472494_1_alg».proof.Proof.WholeRun
import proofs.«102974_j66915590472494_1_alg».proof.Proof.Boundaries
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the reference's last stage at those arguments:
    the kernel by its run read boundary by boundary, the reference by its run read stage by stage. -/
theorem algebraic : Cert.algebraic_KernelIdeal_ReferenceIdeal := by
  intro m ρ m' ρ' _ hagree
  refine ⟨fun c => Cert.ReferenceIdeal.Read.val_main_v143 (F := Ideal) (Cert.KernelIdeal.Boundaries.a0 m c) (Cert.KernelIdeal.Boundaries.a1 m c) (Cert.KernelIdeal.Boundaries.a2 m c) (Cert.KernelIdeal.Boundaries.a3 m c) (Cert.KernelIdeal.Boundaries.a4 m c) (Cert.KernelIdeal.Boundaries.a5 m c) (Cert.KernelIdeal.Boundaries.a6 m c) (Cert.KernelIdeal.Boundaries.a7 m c) (Cert.KernelIdeal.Boundaries.a8 m c), ?_, ?_⟩
  · refine (θ_run Cert.KernelIdeal.defs _ _).mono (fun r h c => ?_) (Cert.KernelIdeal.Whole.run_all m ρ)
    exact ⟨(h c _ (Cert.KernelIdeal.Gen.mem_uc Cert.KernelIdeal.main_v79 (by decide))).trans (Cert.KernelIdeal.Boundaries.result m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c)⟩
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8⟩ := hagree c
    rw [Cert.ReferenceIdeal.Read.val_main_v143_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
